-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64 : Shape := ⟨2, ![4096, 64]⟩
abbrev S4096x4096 : Shape := ⟨2, ![4096, 4096]⟩
abbrev S64x64 : Shape := ⟨2, ![64, 64]⟩
abbrev S_ : Shape := ⟨0, ![]⟩

class Facts : Prop where
  bcast_S_S4096x64 : S_.BroadcastsInDim S4096x64 (![] : Fin 0 → Fin S4096x64.rank)
  reducesTo_S4096x64_S_d0_1 : S4096x64.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S64x64 : S_.BroadcastsInDim S64x64 (![] : Fin 0 → Fin S64x64.rank)
  reducesTo_S64x64_S_d0_1 : S64x64.ReducesTo [0, 1] S_

variable [Facts]

def fn {F : FTy → Type} [FloatOps F] (main_arg0 : FVec F S4096x64 .f32) (main_arg1 : FVec F S4096x4096 .f32) (main_arg2 : FVec F S64x64 .f32) : IVec S_ 1 :=
  let main_v0 : FVec F S4096x64 .f32 := Host.absf main_arg0
  let main_cst : FVec F S_ .f32 := constant S_ .f32 0x7F800000#32
  let main_v1 : FVec F S4096x64 .f32 := broadcastInDim S4096x64 ![] bcast_S_S4096x64 main_cst
  let main_v2 : IVec S4096x64 1 := cmpf .olt main_v0 main_v1
  let main_c : IVec S_ 1 := constantI S_ 1 1#1
  let main_v3 : IVec S_ 1 := (fun x v => Host.reduce IntOp.andi x v reducesTo_S4096x64_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  main_v13
-- ==== Kernel.lean ====
abbrev S4096x64 : Shape := ⟨2, ![4096, 64]⟩
abbrev S4096x4096 : Shape := ⟨2, ![4096, 4096]⟩
abbrev S64x64 : Shape := ⟨2, ![64, 64]⟩
abbrev S64x4096 : Shape := ⟨2, ![64, 4096]⟩
abbrev S512x4096 : Shape := ⟨2, ![512, 4096]⟩
abbrev S64x512 : Shape := ⟨2, ![64, 512]⟩

abbrev nBuf : Space → Nat
  | .hbm => 6
  | .vmem => 7
  | .smem => 0
  | _ => 0

abbrev bufTy : (tb : Table) → Fin (tcTables nBuf tb) → BufTy
  | .hbm, ⟨0, _⟩ => ⟨S4096x64, .f32⟩
  | .hbm, ⟨1, _⟩ => ⟨S4096x4096, .f32⟩
  | .hbm, ⟨2, _⟩ => ⟨S64x64, .f32⟩
  | .hbm, ⟨3, _⟩ => ⟨S64x4096, .f32⟩
  | .hbm, ⟨4, _⟩ => ⟨S64x4096, .f32⟩
  | .hbm, ⟨5, _⟩ => ⟨S4096x64, .f32⟩
  | .local _ .vmem, ⟨0, _⟩ => ⟨S512x4096, .f32⟩
  | .local _ .vmem, ⟨1, _⟩ => ⟨S512x4096, .f32⟩
  | .local _ .vmem, ⟨2, _⟩ => ⟨S64x4096, .f32⟩
  | .local _ .vmem, ⟨3, _⟩ => ⟨S64x64, .f32⟩
  | .local _ .vmem, ⟨4, _⟩ => ⟨S64x512, .f32⟩
  | .local _ .vmem, ⟨5, _⟩ => ⟨S64x512, .f32⟩
  | .local _ .vmem, ⟨6, _⟩ => ⟨S64x4096, .bf16⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S4096x64_S64x4096_1_0 : S4096x64.Transposes [1, 0] S64x4096
  inb_S64x64_S64x64_0_0 : ∀ a, (![0, 0] : Fin 2 → Nat) a + S64x64.size a ≤ S64x64.size a
  h_S64x64 : 0 < S64x64.numel
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  bitsLt_bf16_f32 : FTy.bits .bf16 < FTy.bits .f32
  packedbf16_S64x4096_S64x4096_0_0 : (Rect.unit (s := S64x4096) ![0, 0] S64x4096.size inb_S64x4096_S64x4096_0_0).PackedRows (EltTy.packing .bf16)
  inb_S512x4096_S512x4096_0_0 : ∀ a, (![0, 0] : Fin 2 → Nat) a + S512x4096.size a ≤ S512x4096.size a
  h_S512x4096 : 0 < S512x4096.numel
  inb_S64x512_S64x512_0_0 : ∀ a, (![0, 0] : Fin 2 → Nat) a + S64x512.size a ≤ S64x512.size a
  h_S64x512 : 0 < S64x512.numel
  transposes_S64x4096_S4096x64_1_0 : S64x4096.Transposes [1, 0] S4096x64
  dot_S64x64_S64x4096_S64x4096_0_0_1_1_n_n_wf : DotDims.WF S64x64 S64x4096 S64x4096 [0] [0] [1] [1] [] []
  dot_S64x4096_S512x4096_S64x512_1_1_0_0_n_n_wf : DotDims.WF S64x4096 S512x4096 S64x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x4096.size a ≤ S64x4096.size a
  hwx0_1 : ∀ i : grid0.Coords, EltTy.bits .f32 = 32 ∨ (Rect.block (s := S64x4096) S64x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x512.size a ≤ S64x4096.size a
  hwx0_3 : ∀ i : grid0.Coords, EltTy.bits .f32 = 32 ∨ (Rect.block (s := S64x4096) S64x512.size (cc0_transform_3 i) (hinb0_3 i)).WholeWords (EltTy.packing .f32)

variable [Facts₀]

def dot_S64x64_S64x4096_S64x4096_0_0_1_1_n_n : DotDims S64x64 S64x4096 S64x4096 where
  lhsContracting := [0]
  rhsContracting := [0]
  lhsNonContracting := [1]
  rhsNonContracting := [1]
  lhsBatch := []
  rhsBatch := []
  wf := dot_S64x64_S64x4096_S64x4096_0_0_1_1_n_n_wf
def dot_S64x4096_S512x4096_S64x512_1_1_0_0_n_n : DotDims S64x4096 S512x4096 S64x512 where
  lhsContracting := [1]
  rhsContracting := [1]
  lhsNonContracting := [0]
  rhsNonContracting := [0]
  lhsBatch := []
  rhsBatch := []
  wf := dot_S64x4096_S512x4096_S64x512_1_1_0_0_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S64x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x64 : Shape := ⟨2, ![4096, 64]⟩
abbrev S4096x4096 : Shape := ⟨2, ![4096, 4096]⟩
abbrev S64x64 : Shape := ⟨2, ![64, 64]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S4096x4096, .f32⟩
  | .hbm, ⟨2, _⟩ => ⟨S64x64, .f32⟩
  | .hbm, ⟨3, _⟩ => ⟨S4096x64, .f32⟩
  | .hbm, ⟨4, _⟩ => ⟨S4096x64, .f32⟩
  | .hbm, ⟨5, _⟩ => ⟨S_, .f32⟩
  | .hbm, ⟨6, _⟩ => ⟨S4096x64, .f32⟩
  | .hbm, ⟨7, _⟩ => ⟨S4096x64, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩

abbrev nD : Nat := 1
abbrev τ : Topo := Topo.v7x

variable {F : FTy → Type} [FloatOps F]

class Facts₀ : Prop where
  bcast_S_S4096x64 : S_.BroadcastsInDim S4096x64 (![] : Fin 0 → Fin S4096x64.rank)
  dot_S4096x64_S64x64_S4096x64_1_0_0_1_n_n_wf : DotDims.WF S4096x64 S64x64 S4096x64 [1] [0] [0] [1] [] []
  dot_S4096x4096_S4096x64_S4096x64_1_0_0_1_n_n_wf : DotDims.WF S4096x4096 S4096x64 S4096x64 [1] [0] [0] [1] [] []

variable [Facts₀]

def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S4096x4096_S4096x64_S4096x64_1_0_0_1_n_n : DotDims S4096x4096 S4096x64 S4096x64 where
  lhsContracting := [1]
  rhsContracting := [0]
  lhsNonContracting := [0]
  rhsNonContracting := [1]
  lhsBatch := []
  rhsBatch := []
  wf := dot_S4096x4096_S4096x64_S4096x64_1_0_0_1_n_n_wf

class Facts : Prop extends Facts₀ where

variable [Facts]
-- ==== Proof.Pieces.lean ====
/-
  What one run of the kernel body leaves behind, as values of what it loaded.

  At the grid's first point the body stores the projected features into the buffer it carries between points, reads
  that buffer back, and stores the output block computed from it and from the point's rows of the adjacency. At every
  later point it stores nothing into the carried buffer and computes the output block from what the buffer already
  holds. Each store covers its whole buffer at offset zero, so what a buffer holds afterwards is the stored value, and
  a load of a whole buffer reads its contents.
-/
import proofs.«167858_g57492432224543_cont_9to1_m_790_28_alg».proof.Proof.Gen.KernelIdeal.Frame
import Idealize.ShloMosaic.Lib.Pipeline.Value
import Idealize.ShloMosaic.Lib.Tactic

noncomputable section

namespace Cert.KernelIdeal.GnnValue

open Cert.KernelIdeal Cert.KernelIdeal.Gen Idealize.ShloMosaic Idealize.ShloMosaic.TcCoe Idealize.ShloMosaic.Tactic Idealize.SL.Sem

variable {F : FTy → Type} [FloatOps F]

theorem offset_zero : (![0, 0] : Fin 2 → Nat) = fun _ => 0 := funext fun a => by fin_cases a <;> rfl

/-- A later point (not the first): the output block is the second payload of the carried buffer's contents `xs0` and
    the point's adjacency rows `x0`. -/
theorem out_later (c : Dev nD) (i : grid0.Coords) (a1 : Memref sig .tc .vmem S512x4096 .f32) (h1 : a1.IsWhole) (a2 : Memref sig .tc .vmem S64x4096 .f32) (h2 : a2.IsWhole) (a3 : Memref sig .tc .vmem S64x64 .f32) (h3 : a3.IsWhole) (a4 : Memref sig .tc .vmem S64x512 .f32) (h4 : a4.IsWhole) (a5 : Memref sig .tc .vmem S64x4096 .bf16) (h5 : a5.IsWhole) (hc : ¬cond0_0 i)
    (x0 : Vec F S512x4096 .f32) (x1 : Vec F S64x4096 .f32) (x2 : Vec F S64x64 .f32) (xs0 : Vec F S64x4096 .bf16) :
    out0_B_3 c i a1 h1 a2 h2 a3 h3 a4 h4 a5 h5 hc x0 x1 x2 xs0 = k0_pay2 xs0 x0 := by
  unfold out0_B_3
  rw [View.read_writes_eq_canon _ _ _ (cover0_B_3 c i a1 h1 a2 h2 a3 h3 a4 h4 a5 h5 hc x0 x1 x2 xs0)]
  unfold kernelRun0_B
  dsimp only
  sl_unfold_words
  rw [View.canon_unit_zero offset_zero]
  simp only [View.readAt_eq_ld, h1.read_unread, h5.read_unread, View.ld_unit_zero (S := S512x4096) offset_zero,
    View.ld_unit_zero (S := S64x4096) offset_zero]

/-- The first point: the carried buffer ends holding the first payload of the weights `x2` and the transposed
    features `x1`. -/
theorem carried_first (c : Dev nD) (i : grid0.Coords) (a1 : Memref sig .tc .vmem S512x4096 .f32) (h1 : a1.IsWhole) (a2 : Memref sig .tc .vmem S64x4096 .f32) (h2 : a2.IsWhole) (a3 : Memref sig .tc .vmem S64x64 .f32) (h3 : a3.IsWhole) (a4 : Memref sig .tc .vmem S64x512 .f32) (h4 : a4.IsWhole) (a5 : Memref sig .tc .vmem S64x4096 .bf16) (h5 : a5.IsWhole) (hc : cond0_0 i)
    (x0 : Vec F S512x4096 .f32) (x1 : Vec F S64x4096 .f32) (x2 : Vec F S64x64 .f32) :
    sout0_A_0 c i a1 h1 a2 h2 a3 h3 a4 h4 a5 h5 hc x0 x1 x2 = k0_pay1 x2 x1 := by
  unfold sout0_A_0
  rw [View.read_writes_eq_canon _ _ _ (scover0_A_0 c i a1 h1 a2 h2 a3 h3 a4 h4 a5 h5 hc x0 x1 x2)]
  unfold kernelRun0_A
  dsimp only
  sl_unfold_words
  rw [View.canon_unit_zero offset_zero]
  simp only [View.readAt_eq_ld, h2.read_unread, h3.read_unread, View.ld_unit_zero (S := S64x64) offset_zero,
    View.ld_unit_zero (S := S64x4096) offset_zero]

/-- The first point: the output block is the second payload of what was just stored into the carried buffer (read
    back through the one covering store) and the point's adjacency rows. -/
theorem out_first (c : Dev nD) (i : grid0.Coords) (a1 : Memref sig .tc .vmem S512x4096 .f32) (h1 : a1.IsWhole) (a2 : Memref sig .tc .vmem S64x4096 .f32) (h2 : a2.IsWhole) (a3 : Memref sig .tc .vmem S64x64 .f32) (h3 : a3.IsWhole) (a4 : Memref sig .tc .vmem S64x512 .f32) (h4 : a4.IsWhole) (a5 : Memref sig .tc .vmem S64x4096 .bf16) (h5 : a5.IsWhole) (hc : cond0_0 i)
    (x0 : Vec F S512x4096 .f32) (x1 : Vec F S64x4096 .f32) (x2 : Vec F S64x64 .f32) :
    out0_A_3 c i a1 h1 a2 h2 a3 h3 a4 h4 a5 h5 hc x0 x1 x2 = k0_pay2 (k0_pay1 x2 x1) x0 := by
  unfold out0_A_3
  rw [View.read_writes_eq_canon _ _ _ (cover0_A_3 c i a1 h1 a2 h2 a3 h3 a4 h4 a5 h5 hc x0 x1 x2)]
  unfold kernelRun0_A
  dsimp only
  sl_unfold_words
  rw [View.canon_unit_zero offset_zero, View.readCov_unit_zero (S := S64x4096) _ offset_zero]
  simp only [View.readAt_eq_ld, h1.read_unread, h2.read_unread, h3.read_unread,
    View.ld_unit_zero (S := S512x4096) offset_zero, View.ld_unit_zero (S := S64x64) offset_zero,
    View.ld_unit_zero (S := S64x4096) offset_zero]

end Cert.KernelIdeal.GnnValue

end
-- ==== Proof.Chain.lean ====
/-
  What the output's staging buffer and the carried buffer hold after each of the eight grid points.

  The carried buffer is written once, at the first point, with the projected features, and no later point stores into
  it: after EVERY point it holds that first store. So the output block a point leaves is always the second payload of
  that one value and the point's own rows of the adjacency — by induction over the points, the first point being the
  case that stores, every later one the case that only reads.
-/
import proofs.«167858_g57492432224543_cont_9to1_m_790_28_alg».proof.Proof.Pieces

noncomputable section

namespace Cert.KernelIdeal.GnnValue

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

theorem grid_pos : 0 < cfg0.N := by rw [show cfg0.N = 8 from N_0]; decide

/-- The first point of the grid. -/
abbrev first : Fin cfg0.N := ⟨0, grid_pos⟩

/-- What the first point stores into the carried buffer: the first payload of the weights' block and the transposed
    features' block there. -/
def carried (c : Dev nD) : Vec F S64x4096 .bf16 := k0_pay1 (iblk m c 2 first) (iblk m c 1 first)

/-- The contents after a point depend on the point's number only. -/
theorem outsAt_congr (c : Dev nD) (a b : ℕ) (ha : a < cfg0.N) (hb : b < cfg0.N) (hab : a = b) :
    outsAt0 m c a ha = outsAt0 m c b hb := by
  subst hab; rfl

/-- After the first point: the carried buffer holds the carried value, the output's buffer the second payload of it and
    the first point's adjacency rows. -/
theorem outsAt_first (c : Dev nD) (h : 0 < cfg0.N) :
    outsAt0 m c 0 h = (k0_pay2 (carried m c) (iblk m c 0 ⟨0, h⟩), carried m c) := by
  have e := outsAt0_A m c ⟨0, h⟩ rfl
  rw [out_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) ((hcond0_0 ⟨0, h⟩).mpr rfl)
      (iblk m c 0 ⟨0, h⟩) (iblk m c 1 ⟨0, h⟩) (iblk m c 2 ⟨0, h⟩),
    carried_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) ((hcond0_0 ⟨0, h⟩).mpr rfl)
      (iblk m c 0 ⟨0, h⟩) (iblk m c 1 ⟨0, h⟩) (iblk m c 2 ⟨0, h⟩)] at e
  unfold carried
  exact e

/-- After a later point, given the contents after the point before it. -/
theorem outsAt_next (c : Dev nD) (n : ℕ) (h : n + 1 < cfg0.N)
    (ih : outsAt0 m c n (Nat.lt_of_succ_lt h) = (k0_pay2 (carried m c) (iblk m c 0 ⟨n, Nat.lt_of_succ_lt h⟩), carried m c)) :
    outsAt0 m c (n + 1) h = (k0_pay2 (carried m c) (iblk m c 0 ⟨n + 1, h⟩), carried m c) := by
  have hN : cfg0.N = 8 := N_0
  have hB : ¬(⟨n + 1, h⟩ : Fin cfg0.N).val % 8 = 0 := by dsimp only; omega
  have e := outsAt0_B m c ⟨n + 1, h⟩ hB
  have hprev : (outsAt0 m c ((⟨n + 1, h⟩ : Fin cfg0.N).val - 1)
      (Nat.lt_of_le_of_lt (Nat.sub_le _ _) (⟨n + 1, h⟩ : Fin cfg0.N).isLt)).2 = carried m c :=
    (congrArg Prod.snd (outsAt_congr m c _ n _ (Nat.lt_of_succ_lt h) (Nat.add_sub_cancel n 1))).trans (congrArg Prod.snd ih)
  rw [hprev] at e
  rw [out_later c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) (fun hh => hB ((hcond0_0 ⟨n + 1, h⟩).mp hh))
      (iblk m c 0 ⟨n + 1, h⟩) (iblk m c 1 ⟨n + 1, h⟩) (iblk m c 2 ⟨n + 1, h⟩) (carried m c)] at e
  unfold sout0_B_0 at e
  exact e

/-- After point `n`: the output's staging buffer holds the second payload of the carried value and point `n`'s adjacency
    rows, and the carried buffer still holds the carried value. -/
theorem outsAt_eq (c : Dev nD) (n : ℕ) (h : n < cfg0.N) :
    outsAt0 m c n h = (k0_pay2 (carried m c) (iblk m c 0 ⟨n, h⟩), carried m c) := by
  induction n with
  | zero => exact outsAt_first m c h
  | succ n ih => exact outsAt_next m c n h (ih (Nat.lt_of_succ_lt h))

end Cert.KernelIdeal.GnnValue

end
-- ==== Proof.Blocks.lean ====
/-
  The arrays as the kernel's region finds them, and the blocks its windows read at each of the eight grid points.

  Point `t` reads rows 512·t … 512·t + 511 of the adjacency, all columns; the transposed features and the weights are read
  whole at every point; point `t` writes back columns 512·t … 512·t + 511 of the 64-row result. The transposed features
  are what a host transpose made of the feature array before the region: entry (d, k) is the features' entry (k, d).
-/
import proofs.«167858_g57492432224543_cont_9to1_m_790_28_alg».proof.Proof.Gen.KernelIdeal.Frame
import Idealize.ShloMosaic.Lib.Pipeline.Value
import Idealize.ShloMosaic.Lib.StableHlo.Run
import Idealize.ShloMosaic.Lib.ValueIdx
import Idealize.ShloMosaic.Lib.ValueLayout

noncomputable section

namespace Cert.KernelIdeal.GnnValue

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The printed index maps, decided once over the grid: the adjacency's block moves down its rows with the point, the
    result's block along its columns, the other two windows stay on block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = t.val :=
  (by decide +kernel : ∀ t : Fin grid0.N, _)

/-- Row `r` of the adjacency block at point `t` is row 512·t + r of the adjacency. -/
theorem adj_rows (c : Dev nD) (t : Fin cfg0.N) (r : Fin 512) (k : Fin 4096) (i : Fin 4096)
    (hi : i.val = 512 * t.val + r.val) :
    (iblk m c 0 t : Vec F S512x4096 .f32) (ix2 r k) = m ((c : Thread nD τ).loc main_arg1) (ix2 i k) := by
  obtain ⟨e0, e1, -⟩ := idx_facts t
  unfold iblk
  rw [View.read_apply]
  show V m c main_arg1 (((cfg0.win 0).blk t).view.emb (ix2 r k)) = _
  rw [V_main_arg1]
  refine congrArg _ (funext fun a => Fin.ext ?_)
  match a with
  | ⟨0, _⟩ => show win0_0.index t (0 : Fin 2) * 512 + 1 * r.val = i.val; omega
  | ⟨1, _⟩ => show win0_0.index t (1 : Fin 2) * 4096 + 1 * k.val = k.val; omega

/-- The weights' block at any point is the weight array. -/
theorem weights_whole (c : Dev nD) (t : Fin cfg0.N) (d : Fin 64) (j : Fin 64) :
    (iblk m c 2 t : Vec F S64x64 .f32) (ix2 d j) = m ((c : Thread nD τ).loc main_arg2) (ix2 d j) := by
  obtain ⟨-, -, -, -, e0, e1, -⟩ := idx_facts t
  unfold iblk
  rw [View.read_apply]
  show V m c main_arg2 (((cfg0.win 2).blk t).view.emb (ix2 d j)) = _
  rw [V_main_arg2]
  refine congrArg _ (funext fun a => Fin.ext ?_)
  match a with
  | ⟨0, _⟩ => show win0_2.index t (0 : Fin 2) * 64 + 1 * d.val = d.val; omega
  | ⟨1, _⟩ => show win0_2.index t (1 : Fin 2) * 64 + 1 * j.val = j.val; omega

/-- The array the region finds in the transposed features' buffer: the host's transpose of the feature array. -/
theorem entry_featT (c : Dev nD) :
    (V m c main_v0 : S64x4096.Idx → Elt F .f32)
      = transpose S64x4096 [1, 0] (m ((c : Thread nD τ).loc main_arg0)) transposes_S4096x64_S64x4096_1_0 := by
  show StableHlo.after hostOps0 (fun b => m (c, b)) (Proc.devRef .tc main_v0) = _
  after_results <;> rfl

/-- The transposed features' block at any point, at (d, k), is the features' entry (k, d). -/
theorem featT_whole (c : Dev nD) (t : Fin cfg0.N) (d : Fin 64) (k : Fin 4096) :
    (iblk m c 1 t : Vec F S64x4096 .f32) (ix2 d k) = m ((c : Thread nD τ).loc main_arg0) (ix2 k d) := by
  obtain ⟨-, -, e0, e1, -⟩ := idx_facts t
  unfold iblk
  rw [View.read_apply]
  show V m c main_v0 (((cfg0.win 1).blk t).view.emb (ix2 d k)) = _
  have hemb : ((cfg0.win 1).blk t).view.emb (ix2 d k) = (ix2 d k : S64x4096.Idx) := funext fun a => Fin.ext (by
    match a with
    | ⟨0, _⟩ => show win0_1.index t (0 : Fin 2) * 64 + 1 * d.val = d.val; omega
    | ⟨1, _⟩ => show win0_1.index t (1 : Fin 2) * 4096 + 1 * k.val = k.val; omega)
  rw [hemb, entry_featT]
  exact transpose_ix2_apply (m ((c : Thread nD τ).loc main_arg0)) transposes_S4096x64_S64x4096_1_0 d k

end Cert.KernelIdeal.GnnValue

end
-- ==== Proof.LibMatmulLT.lean ====
/-
  A matrix product into a zero accumulator whose LEFT operand is stored column per output row (both operands contracted
  on their first axis: out = Lᵀ · R), read at an index as a plain sum of products over the contracted axis.

  For a K-by-n left operand and a K-by-M right operand, the entry at (p, q) is Σₖ L(k, p) · R(k, q). The four facts about
  the dimension numbers that say which coordinate of each operand index comes from the output index and which from the
  contraction index are taken as hypotheses: each printed record proves them by unfolding.
-/
import Idealize.ShloMosaic.PureOps.Ideal.Laws
import Idealize.ShloMosaic.Lib.ValueIdx

noncomputable section

open scoped BigOperators

namespace Cert.Lib.MatmulLT

open Idealize.ShloMosaic Idealize.ShloMosaic.ValueIdx

/-- A kernel's matrix product Lᵀ · R into the zero splat, at the ideal values, read at `(p, q)`: the sum over the
    contracted axis of the left operand's column `p` times the right operand's column `q`. -/
theorem matmul_zero_ix2_lt {n K M : ℕ} {φ₁ φ₂ : FTy}
    (d : DotDims (⟨2, ![K, n]⟩ : Shape) (⟨2, ![K, M]⟩ : Shape) (⟨2, ![n, M]⟩ : Shape)) (prec : Option ContractPrecision)
    (hr : d.contr.rank = 1) (hs : d.contr.size ⟨0, by omega⟩ = K)
    (hl0 : ∀ j c, (d.lhsIdx j c 0).val = (c ⟨0, by omega⟩).val) (hl1 : ∀ j c, (d.lhsIdx j c 1).val = (j 0).val)
    (hr0 : ∀ j c, (d.rhsIdx j c 0).val = (c ⟨0, by omega⟩).val) (hr1 : ∀ j c, (d.rhsIdx j c 1).val = (j 1).val)
    (lhs : FVec Ideal (⟨2, ![K, n]⟩ : Shape) φ₁) (rhs : FVec Ideal (⟨2, ![K, M]⟩ : Shape) φ₂) (p : Fin n) (q : Fin M) :
    FloatOps.matmul d prec lhs rhs (constant (⟨2, ![n, M]⟩ : Shape) .f32 0x00000000#32) (ix2 p q)
      = ∑ k : Fin K, lhs (ix2 k p) * rhs (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 k p := funext fun a => Fin.ext (by
    match a with
    | ⟨0, _⟩ => exact (hl0 _ _).trans hk
    | ⟨1, _⟩ => exact hl1 _ _)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.Lib.MatmulLT

end
-- ==== Proof.LibMatmulT.lean ====
/-
  A matrix product into a zero accumulator whose right operand is stored row per output column (both operands contracted
  on their second axis: out = L · Rᵀ), read at an index as a plain sum of products over the contracted axis.

  For an n-by-K left operand and an M-by-K right operand, the entry at (p, q) is Σₖ L(p, k) · R(q, k). The four facts about
  the dimension numbers that say which coordinate of each operand index comes from the output index and which from the
  contraction index are taken as hypotheses: each printed record proves them by unfolding.
-/
import Idealize.ShloMosaic.PureOps.Ideal.Laws
import Idealize.ShloMosaic.Lib.ValueIdx

noncomputable section

open scoped BigOperators

namespace Cert.Lib.MatmulT

open Idealize.ShloMosaic Idealize.ShloMosaic.ValueIdx

/-- A kernel's matrix product L · Rᵀ into the zero splat, at the ideal values, read at `(p, q)`: the sum over the
    contracted axis of the left operand's row `p` times the right operand's row `q`. -/
theorem matmul_zero_ix2_t {n K M : ℕ} {φ₁ φ₂ : FTy}
    (d : DotDims (⟨2, ![n, K]⟩ : Shape) (⟨2, ![M, K]⟩ : Shape) (⟨2, ![n, M]⟩ : Shape)) (prec : Option ContractPrecision)
    (hr : d.contr.rank = 1) (hs : d.contr.size ⟨0, by omega⟩ = K)
    (hl0 : ∀ j c, (d.lhsIdx j c 0).val = (j 0).val) (hl1 : ∀ j c, (d.lhsIdx j c 1).val = (c ⟨0, by omega⟩).val)
    (hr0 : ∀ j c, (d.rhsIdx j c 0).val = (j 1).val) (hr1 : ∀ j c, (d.rhsIdx j c 1).val = (c ⟨0, by omega⟩).val)
    (lhs : FVec Ideal (⟨2, ![n, K]⟩ : Shape) φ₁) (rhs : FVec Ideal (⟨2, ![M, K]⟩ : Shape) φ₂) (p : Fin n) (q : Fin M) :
    FloatOps.matmul d prec lhs rhs (constant (⟨2, ![n, M]⟩ : Shape) .f32 0x00000000#32) (ix2 p q)
      = ∑ k : Fin K, lhs (ix2 p k) * rhs (ix2 q k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 q k := funext fun a => Fin.ext (by
    match a with
    | ⟨0, _⟩ => exact hr0 _ _
    | ⟨1, _⟩ => exact (hr1 _ _).trans hk)
  rw [el, er]

end Cert.Lib.MatmulT

end
-- ==== Proof.Spec.lean ====
/-
  The graph layer both programs compute, as one function of the argument arrays, index by index, on the extended reals.

  With node features f (4096 nodes, 64 input channels), a dense adjacency adj (4096 by 4096) and weights W (64 by 64):
  the projected feature of node k in output channel j is Σ_d f(k, d) · W(d, j); the aggregate at node i is
  Σ_k adj(i, k) · (projected feature of k); the result is its maximum with zero.

  The same numbers arranged the other way round — channel first, node second, every product with its factors exchanged —
  are what a program working on the transposed arrays computes: `layerT`. Multiplication of extended reals is
  commutative, so the two arrangements agree entry by entry, whatever the entries are (infinite ones included): no
  finiteness is needed, because no product is distributed over a sum and nothing is cancelled.
-/
import Idealize.ShloMosaic.PureOps.Ideal
import Idealize.ShloMosaic.Lib.ValueIdx

noncomputable section

open scoped BigOperators

namespace Cert.GnnSpec

open Idealize.ShloMosaic Idealize.ShloMosaic.ValueIdx

/-- The word of `+0.0` read as an extended real: the floor of the rectifier. -/
abbrev floor : EReal := Ideal.ofBits .f32 0x00000000#32

/-- Node `k`'s projected feature in output channel `j`, with the weight written first: Σ_d W(d, j) · fT(d, k), over the
    features stored channel by channel (`fT (d, k)` is node `k`'s input channel `d`). -/
def supportT (fT : FVec Ideal (⟨2, ![64, 4096]⟩ : Shape) .f32) (W : FVec Ideal (⟨2, ![64, 64]⟩ : Shape) .f32)
    (j : Fin 64) (k : Fin 4096) : EReal :=
  ∑ d : Fin 64, W (ix2 d j) * fT (ix2 d k)

/-- The layer in the transposed arrangement: entry (channel `j`, node `i`) is max(Σ_k supportT(j, k) · adj(i, k), 0). -/
def layerT (fT : FVec Ideal (⟨2, ![64, 4096]⟩ : Shape) .f32) (adj : FVec Ideal (⟨2, ![4096, 4096]⟩ : Shape) .f32)
    (W : FVec Ideal (⟨2, ![64, 64]⟩ : Shape) .f32) : FVec Ideal (⟨2, ![64, 4096]⟩ : Shape) .f32 :=
  fun y => max (∑ k : Fin 4096, supportT fT W (y 0) k * adj (ix2 (y 1) k)) floor

/-- The layer as the textbook writes it: entry (node `i`, channel `j`) is max(Σ_k adj(i, k) · Σ_d f(k, d) · W(d, j), 0). -/
def layer (f : FVec Ideal (⟨2, ![4096, 64]⟩ : Shape) .f32) (adj : FVec Ideal (⟨2, ![4096, 4096]⟩ : Shape) .f32)
    (W : FVec Ideal (⟨2, ![64, 64]⟩ : Shape) .f32) : FVec Ideal (⟨2, ![4096, 64]⟩ : Shape) .f32 :=
  fun i => max (∑ k : Fin 4096, adj (ix2 (i 0) k) * ∑ d : Fin 64, f (ix2 k d) * W (ix2 d (i 1))) floor

/-- The two arrangements agree: the transposed layer over the transposed features, read at (channel, node), is the
    layer read at (node, channel) — each product's two factors exchanged, nothing else. -/
theorem layerT_eq_layer (f : FVec Ideal (⟨2, ![4096, 64]⟩ : Shape) .f32) (fT : FVec Ideal (⟨2, ![64, 4096]⟩ : Shape) .f32)
    (adj : FVec Ideal (⟨2, ![4096, 4096]⟩ : Shape) .f32) (W : FVec Ideal (⟨2, ![64, 64]⟩ : Shape) .f32)
    (hT : ∀ (d : Fin 64) (k : Fin 4096), fT (ix2 d k) = f (ix2 k d)) (i : Fin 4096) (j : Fin 64) :
    layerT fT adj W (ix2 j i) = layer f adj W (ix2 i j) := by
  show max (∑ k : Fin 4096, supportT fT W j k * adj (ix2 i k)) floor
    = max (∑ k : Fin 4096, adj (ix2 i k) * ∑ d : Fin 64, f (ix2 k d) * W (ix2 d j)) floor
  refine congrArg (fun s => max s floor) (Finset.sum_congr rfl fun k _ => ?_)
  rw [mul_comm]
  refine congrArg (fun s => adj (ix2 i k) * s) (Finset.sum_congr rfl fun d _ => ?_)
  rw [hT d k, mul_comm]

end Cert.GnnSpec

end
-- ==== Proof.Payload.lean ====
/-
  The kernel body's two stored values, read at an index on the extended reals.

  The first store (made at the grid's first point only) fills the carried buffer with the projected features, channel
  first: entry (j, k) is Σ_d W(d, j) · fT(d, k) — a product contracting the FIRST axis of both operands; the rounding to the
  narrower float format on the way into the buffer is the identity on extended reals.

  The second store (every point) is the output block: entry (j, r) is max(Σ_k s(j, k) · a(r, k), 0) over the carried
  buffer `s` and the point's 512 rows `a` of the adjacency — a product contracting the SECOND axis of both operands, again
  through an identity rounding, then the maximum with the zero splat.
-/
import proofs.«167858_g57492432224543_cont_9to1_m_790_28_alg».proof.Proof.Gen.KernelIdeal.Skeleton
import proofs.«167858_g57492432224543_cont_9to1_m_790_28_alg».proof.Proof.LibMatmulLT
import proofs.«167858_g57492432224543_cont_9to1_m_790_28_alg».proof.Proof.LibMatmulT
import proofs.«167858_g57492432224543_cont_9to1_m_790_28_alg».proof.Proof.Spec
import Idealize.ShloMosaic.Lib.Pipeline.Value
import Idealize.ShloMosaic.Lib.ValueIdx

noncomputable section

open scoped BigOperators

namespace Cert.KernelIdeal.GnnValue

open Cert.KernelIdeal Cert.KernelIdeal.Gen Idealize.ShloMosaic Idealize.ShloMosaic.ValueIdx

/-! ## The first product's dimension numbers: both first axes contracted -/

theorem proj_l0 (j : S64x4096.Idx) (c : dot_S64x64_S64x4096_S64x4096_0_0_1_1_n_n.contr.Idx) :
    (dot_S64x64_S64x4096_S64x4096_0_0_1_1_n_n.lhsIdx j c 0).val = (c ⟨0, by decide⟩).val :=
  dot_S64x64_S64x4096_S64x4096_0_0_1_1_n_n.lhsIdx_val_of_single rfl j c
theorem proj_l1 (j : S64x4096.Idx) (c : dot_S64x64_S64x4096_S64x4096_0_0_1_1_n_n.contr.Idx) :
    (dot_S64x64_S64x4096_S64x4096_0_0_1_1_n_n.lhsIdx j c 1).val = (j 0).val := by
  unfold DotDims.lhsIdx
  rw [dif_neg (show ¬(1 : Fin S64x64.rank) ∈ dot_S64x64_S64x4096_S64x4096_0_0_1_1_n_n.lhsBatch by decide), dif_pos (show (1 : Fin S64x64.rank) ∈ dot_S64x64_S64x4096_S64x4096_0_0_1_1_n_n.lhsNonContracting by decide)]
  rfl
theorem proj_r0 (j : S64x4096.Idx) (c : dot_S64x64_S64x4096_S64x4096_0_0_1_1_n_n.contr.Idx) :
    (dot_S64x64_S64x4096_S64x4096_0_0_1_1_n_n.rhsIdx j c 0).val = (c ⟨0, by decide⟩).val :=
  dot_S64x64_S64x4096_S64x4096_0_0_1_1_n_n.rhsIdx_val_of_single rfl j c
theorem proj_r1 (j : S64x4096.Idx) (c : dot_S64x64_S64x4096_S64x4096_0_0_1_1_n_n.contr.Idx) :
    (dot_S64x64_S64x4096_S64x4096_0_0_1_1_n_n.rhsIdx j c 1).val = (j 1).val := by
  unfold DotDims.rhsIdx
  rw [dif_neg (show ¬(1 : Fin S64x4096.rank) ∈ dot_S64x64_S64x4096_S64x4096_0_0_1_1_n_n.rhsBatch by decide), dif_pos (show (1 : Fin S64x4096.rank) ∈ dot_S64x64_S64x4096_S64x4096_0_0_1_1_n_n.rhsNonContracting by decide)]
  rfl

/-- The carried buffer's contents after the first store: the projected features, channel first. -/
theorem proj_apply (w : FVec Ideal S64x64 .f32) (ft : FVec Ideal S64x4096 .f32) (j : Fin 64) (k : Fin 4096) :
    k0_pay1 (F := Ideal) w ft (ix2 j k) = Cert.GnnSpec.supportT ft w j k := by
  unfold k0_pay1
  simp only [shapeCast_self]
  exact Cert.Lib.MatmulLT.matmul_zero_ix2_lt dot_S64x64_S64x4096_S64x4096_0_0_1_1_n_n none rfl rfl
    proj_l0 proj_l1 proj_r0 proj_r1 w ft j k

/-! ## The second product's dimension numbers: both second axes contracted -/

theorem agg_l0 (j : S64x512.Idx) (c : dot_S64x4096_S512x4096_S64x512_1_1_0_0_n_n.contr.Idx) :
    (dot_S64x4096_S512x4096_S64x512_1_1_0_0_n_n.lhsIdx j c 0).val = (j 0).val := by
  unfold DotDims.lhsIdx
  rw [dif_neg (show ¬(0 : Fin S64x4096.rank) ∈ dot_S64x4096_S512x4096_S64x512_1_1_0_0_n_n.lhsBatch by decide), dif_pos (show (0 : Fin S64x4096.rank) ∈ dot_S64x4096_S512x4096_S64x512_1_1_0_0_n_n.lhsNonContracting by decide)]
  rfl
theorem agg_l1 (j : S64x512.Idx) (c : dot_S64x4096_S512x4096_S64x512_1_1_0_0_n_n.contr.Idx) :
    (dot_S64x4096_S512x4096_S64x512_1_1_0_0_n_n.lhsIdx j c 1).val = (c ⟨0, by decide⟩).val :=
  dot_S64x4096_S512x4096_S64x512_1_1_0_0_n_n.lhsIdx_val_of_single rfl j c
theorem agg_r0 (j : S64x512.Idx) (c : dot_S64x4096_S512x4096_S64x512_1_1_0_0_n_n.contr.Idx) :
    (dot_S64x4096_S512x4096_S64x512_1_1_0_0_n_n.rhsIdx j c 0).val = (j 1).val := by
  unfold DotDims.rhsIdx
  rw [dif_neg (show ¬(0 : Fin S512x4096.rank) ∈ dot_S64x4096_S512x4096_S64x512_1_1_0_0_n_n.rhsBatch by decide), dif_pos (show (0 : Fin S512x4096.rank) ∈ dot_S64x4096_S512x4096_S64x512_1_1_0_0_n_n.rhsNonContracting by decide)]
  rfl
theorem agg_r1 (j : S64x512.Idx) (c : dot_S64x4096_S512x4096_S64x512_1_1_0_0_n_n.contr.Idx) :
    (dot_S64x4096_S512x4096_S64x512_1_1_0_0_n_n.rhsIdx j c 1).val = (c ⟨0, by decide⟩).val :=
  dot_S64x4096_S512x4096_S64x512_1_1_0_0_n_n.rhsIdx_val_of_single rfl j c

/-- The output block a point stores, over the carried buffer `s` and the point's rows `a` of the adjacency. -/
theorem agg_apply (s : FVec Ideal S64x4096 .bf16) (a : FVec Ideal S512x4096 .f32) (j : Fin 64) (r : Fin 512) :
    k0_pay2 (F := Ideal) s a (ix2 j r)
      = max (∑ k : Fin 4096, s (ix2 j k) * a (ix2 r k)) Cert.GnnSpec.floor := by
  unfold k0_pay2
  exact congrArg (fun x => max x Cert.GnnSpec.floor)
    (Cert.Lib.MatmulT.matmul_zero_ix2_t dot_S64x4096_S512x4096_S64x512_1_1_0_0_n_n none rfl rfl
      agg_l0 agg_l1 agg_r0 agg_r1 s (truncf .bf16 a bitsLt_bf16_f32) j r)

end Cert.KernelIdeal.GnnValue

end
-- ==== Proof.Result.lean ====
/-
  The kernel program's result on the extended reals: the layer of the specification.

  Point `t` of the grid writes back columns 512·t … 512·t + 511 of a 64-row array; what it writes there is, at
  (channel j, column 512·t + r), max(Σ_k carried(j, k) · adj(512·t + r, k), 0), where the carried value is the projected
  features Σ_d W(d, j) · f(k, d): the transposed layer of the specification. The eight column blocks tile the array, so
  after the region the array IS the transposed layer; the host's transpose after the region turns it into the layer.
-/
import proofs.«167858_g57492432224543_cont_9to1_m_790_28_alg».proof.Proof.Chain
import proofs.«167858_g57492432224543_cont_9to1_m_790_28_alg».proof.Proof.Blocks
import proofs.«167858_g57492432224543_cont_9to1_m_790_28_alg».proof.Proof.Payload

noncomputable section

open scoped BigOperators

namespace Cert.KernelIdeal.GnnValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The features stored channel by channel: entry (d, k) is node `k`'s input channel `d`. -/
def featT (c : Dev nD) : FVec Ideal S64x4096 .f32 := fun y => m ((c : Thread nD τ).loc main_arg0) (ix2 (y 1) (y 0))

/-- The array the region leaves: the transposed layer of the argument arrays. -/
def resultT (c : Dev nD) : Buf (Elt Ideal) ((c : Thread nD τ).loc main_v1) :=
  Cert.GnnSpec.layerT (featT m c) (m ((c : Thread nD τ).loc main_arg1)) (m ((c : Thread nD τ).loc main_arg2))

/-- The carried value at (channel j, node k): the projected feature Σ_d W(d, j) · f(k, d). -/
theorem carried_apply (c : Dev nD) (j : Fin 64) (k : Fin 4096) :
    carried m c (ix2 j k) = Cert.GnnSpec.supportT (featT m c) (m ((c : Thread nD τ).loc main_arg2)) j k := by
  unfold carried
  refine (proj_apply (iblk m c 2 first) (iblk m c 1 first) j k).trans ?_
  unfold Cert.GnnSpec.supportT
  refine Finset.sum_congr rfl fun d _ => ?_
  rw [weights_whole m c first d j, featT_whole m c first d k]
  rfl

/-- What point `t` writes back is block `t` of the transposed layer. -/
theorem flushed_eq (c : Dev nD) (t : Fin cfg0.N) :
    (dats m 0 c).flushed 3 t = ((cfg0.win 3).blk t).view.read (Elt Ideal) (resultT m c) := by
  show (cfg0.win 3).cut (grid0.coords t) ((dats m 0 c).after 3 t) = _
  rw [after0_3, outsAt_eq]
  have hN : t.val < 8 := lt_of_lt_of_eq t.isLt (show cfg0.N = 8 from N_0)
  obtain ⟨-, -, -, -, -, -, e0, e1⟩ := idx_facts t
  funext y
  obtain ⟨j, r, rfl⟩ : ∃ (j : Fin 64) (r : Fin 512), y = ix2 j r := ⟨y 0, y 1, eq_ix2 y⟩
  rw [View.read_apply]
  have hemb : ((cfg0.win 3).blk t).view.emb (ix2 j r) = (ix2 j ⟨512 * t.val + r.val, by omega⟩ : S64x4096.Idx) :=
    funext fun a => Fin.ext (by
      match a with
      | ⟨0, _⟩ => show win0_3.index t (0 : Fin 2) * 64 + 1 * j.val = j.val; omega
      | ⟨1, _⟩ => show win0_3.index t (1 : Fin 2) * 512 + 1 * r.val = 512 * t.val + r.val; omega)
  rw [hemb]
  refine (agg_apply (carried m c) (iblk m c 0 t) j r).trans ?_
  show max (∑ k : Fin 4096, carried m c (ix2 j k) * (iblk m c 0 t : Vec Ideal S512x4096 .f32) (ix2 r k)) Cert.GnnSpec.floor
    = max (∑ k : Fin 4096, Cert.GnnSpec.supportT (featT m c) (m ((c : Thread nD τ).loc main_arg2)) j k
        * m ((c : Thread nD τ).loc main_arg1) (ix2 ⟨512 * t.val + r.val, by omega⟩ k)) Cert.GnnSpec.floor
  refine congrArg (fun s => max s Cert.GnnSpec.floor) (Finset.sum_congr rfl fun k _ => ?_)
  rw [carried_apply m c j k, adj_rows m c t r k ⟨512 * t.val + r.val, by omega⟩ rfl]

/-- An index of the result array is in point `t`'s block iff each coordinate is in the block's range on its axis. -/
theorem mem_blk (t : Fin cfg0.N) (i : S64x4096.Idx) :
    i ∈ ((cfg0.win 3).blk t).view.set ↔ ∀ a : Fin 2, win0_3.index t a * S64x512.size a ≤ (i a).val ∧ (i a).val < win0_3.index t a * S64x512.size a + S64x512.size a := by
  show i ∈ ((View.whole main_v1).slice (win0_3.rect t)).set ↔ _
  rw [View.set_slice_whole, Rect.mem_set_unit]
  exact Iff.rfl

/-- Every index is in the block of the point its column falls in: column b belongs to point b / 512. -/
theorem covered (i : S64x4096.Idx) :
    ∃ t : Fin cfg0.N, (cfg0.win 3).flush t = true ∧ i ∈ ((cfg0.win 3).blk t).view.set := by
  have hN : cfg0.N = 8 := N_0
  have h0 : (i 0).val < 64 := (i 0).isLt
  have h1 : (i 1).val < 4096 := (i 1).isLt
  have ht : (i 1).val / 512 < cfg0.N := by rw [hN]; omega
  obtain ⟨-, -, -, -, -, -, e0, e1⟩ := idx_facts ⟨(i 1).val / 512, ht⟩
  refine ⟨⟨(i 1).val / 512, ht⟩, flush0_3 _, ?_⟩
  rw [mem_blk]
  intro a
  match a with
  | ⟨0, _⟩ =>
    show win0_3.index ⟨(i 1).val / 512, ht⟩ (0 : Fin 2) * 64 ≤ (i 0).val ∧ (i 0).val < win0_3.index ⟨(i 1).val / 512, ht⟩ (0 : Fin 2) * 64 + 64
    omega
  | ⟨1, _⟩ =>
    show win0_3.index ⟨(i 1).val / 512, ht⟩ (1 : Fin 2) * 512 ≤ (i 1).val ∧ (i 1).val < win0_3.index ⟨(i 1).val / 512, ht⟩ (1 : Fin 2) * 512 + 512
    have e1' : win0_3.index ⟨(i 1).val / 512, ht⟩ (1 : Fin 2) = (i 1).val / 512 := e1
    omega

/-- The array after the region is the transposed layer. -/
theorem region_result (c : Dev nD) : (dats m 0 c).arrAt 3 cfg0.N = resultT m c :=
  (dats m 0 c).arrAt_eq_of_cover 3 (resultT m c) (fun t _ => flushed_eq m c t) covered

/-- The transposed layer, transposed back by the host, is the layer. -/
theorem transposed_back (c : Dev nD) :
    transpose S4096x64 [1, 0] (resultT m c) transposes_S64x4096_S4096x64_1_0
      = Cert.GnnSpec.layer (m ((c : Thread nD τ).loc main_arg0)) (m ((c : Thread nD τ).loc main_arg1)) (m ((c : Thread nD τ).loc main_arg2)) := by
  funext i
  obtain ⟨p, q, rfl⟩ : ∃ (p : Fin 4096) (q : Fin 64), i = ix2 p q := ⟨i 0, i 1, eq_ix2 i⟩
  refine (transpose_ix2_apply (resultT m c) transposes_S64x4096_S4096x64_1_0 p q).trans ?_
  exact Cert.GnnSpec.layerT_eq_layer (m ((c : Thread nD τ).loc main_arg0)) (featT m c) _ _ (fun d k => rfl) p q

/-- The program's result buffer after the host operation that follows the region: the layer. -/
theorem tail_result (c : Dev nD) :
    Pipeline.afterTail₀ cfgs (dats m) 0 (V0 m) [hostOps1] c main_v2
      = Cert.GnnSpec.layer (m ((c : Thread nD τ).loc main_arg0)) (m ((c : Thread nD τ).loc main_arg1)) (m ((c : Thread nD τ).loc main_arg2)) := by
  unfold Pipeline.afterTail₀
  show StableHlo.after hostOps1 _ (Proc.devRef .tc main_v2) = _
  after_results
  refine Eq.trans (congrArg (fun x => transpose S4096x64 [1, 0] x transposes_S64x4096_S4096x64_1_0) ?_) (transposed_back m c)
  exact (Pipeline.withArrays_arr spec0 launch0.win.arr_inj c _ _ 3).trans (region_result m c)

/-- The program's run, read: every weakly fair execution ends with the result buffer at the layer of the argument
    arrays, and the argument arrays as they were. -/
theorem run : θ_run defs (onTc (τ := τ) (main (F := Ideal))) ⟨m, fun _ => 0, ρ⟩ fun r => ∀ c : Dev nD,
      r.2.mem ((c : Thread nD τ).loc main_v2)
        = Cert.GnnSpec.layer (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v2 (Pipeline.mem_restRefs_of main_v2 (by decide) (by decide))).trans (tail_result m c),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).1 2).trans (((dats m 0 c).arrAt_in 2 rfl _).trans ((A_eq m c 2).trans (V_main_arg2 m c)))⟩)
    (run_main m ρ)

end Cert.KernelIdeal.GnnValue

end
-- ==== Proof.RefSpec.lean ====
/-
  The reference program's result, index by index, is the layer of the specification.

  The reference multiplies the features by the weights, the adjacency by that product, and takes the maximum with a
  zero splat. Read at (node i, channel j): max(Σ_k adj(i, k) · Σ_d f(k, d) · W(d, j), 0) — the specification's `layer`
  as it stands, once the operand indices the two products read are written from their coordinates.
-/
import proofs.«167858_g57492432224543_cont_9to1_m_790_28_alg».proof.Proof.Gen.ReferenceIdeal.Read
import proofs.«167858_g57492432224543_cont_9to1_m_790_28_alg».proof.Proof.Spec

noncomputable section

open scoped BigOperators

namespace Cert.ReferenceIdeal.GnnValue

open Cert.ReferenceIdeal Cert.ReferenceIdeal.Read Idealize.ShloMosaic Idealize.ShloMosaic.ValueIdx

/-- The aggregation reads the adjacency at (i, k) … -/
theorem agg_left (p : Fin 4096) (q : Fin 64) (k : Fin 4096) : lidx_main_v1 (ix2 p q) k = ix2 p k :=
  funext fun a => Fin.ext (by match a with | ⟨0, _⟩ => rfl | ⟨1, _⟩ => rfl)
/-- … and the projected features at (k, j). -/
theorem agg_right (p : Fin 4096) (q : Fin 64) (k : Fin 4096) : ridx_main_v1 (ix2 p q) k = ix2 k q :=
  funext fun a => Fin.ext (by match a with | ⟨0, _⟩ => rfl | ⟨1, _⟩ => rfl)
/-- The projection reads the features at (k, d) … -/
theorem proj_left (k : Fin 4096) (q : Fin 64) (d : Fin 64) : lidx_main_v0 (ix2 k q) d = ix2 k d :=
  funext fun a => Fin.ext (by match a with | ⟨0, _⟩ => rfl | ⟨1, _⟩ => rfl)
/-- … and the weights at (d, j). -/
theorem proj_right (k : Fin 4096) (q : Fin 64) (d : Fin 64) : ridx_main_v0 (ix2 k q) d = ix2 d q :=
  funext fun a => Fin.ext (by match a with | ⟨0, _⟩ => rfl | ⟨1, _⟩ => rfl)

/-- The reference's last stage is the layer. -/
theorem result_eq (x0 : FVec Ideal S4096x64 .f32) (x1 : FVec Ideal S4096x4096 .f32) (x2 : FVec Ideal S64x64 .f32) :
    val_main_v2 (F := Ideal) x0 x1 x2 = Cert.GnnSpec.layer x0 x1 x2 := by
  funext i
  obtain ⟨p, q, rfl⟩ : ∃ (p : Fin 4096) (q : Fin 64), i = ix2 p q := ⟨i 0, i 1, eq_ix2 i⟩
  rw [val_main_v2_apply, val_main_v1_apply, val_main_call0_v0_apply, val_main_call0_cst_apply]
  simp only [val_main_v0_apply, agg_left, agg_right, proj_left, proj_right]
  rfl

end Cert.ReferenceIdeal.GnnValue

end
-- ==== Proof.lean ====
/-
  A graph layer: relu(adj · (features · W)) on 4096 nodes, 64 input and 64 output channels.

  The kernel program transposes the features on the host, runs one kernel over eight grid points, and transposes the
  kernel's 64-by-4096 result back. At its first point the kernel computes the projected features Wᵀ · featuresᵀ
  (channel first) once into a buffer it keeps for the remaining points; every point then multiplies that buffer by
  its own 512 rows of the adjacency, contracting over the nodes, takes the maximum with zero, and writes the block
  back as 512 columns of the result. The reference program multiplies the features by the weights, the adjacency by
  that product, and takes the maximum with zero.

  On the extended reals both results are, at (node i, channel j), max(Σ_k adj(i, k) · Σ_d f(k, d) · W(d, j), 0): the
  kernel's arrangement differs only in the order of the two factors of each product, and multiplication of extended
  reals is commutative; the rounding to a narrower float format on the way into the kernel's products is the identity
  there. Nothing is distributed or cancelled, so the inputs' finiteness is not used.

  The three frames: the two kernel programs' are the generated frame proofs; the reference has no kernel, and its frame
  is its run with the result dropped. The idealization rewrote nothing, so what it must preserve is `True`.
-/
import proofs.«167858_g57492432224543_cont_9to1_m_790_28_alg».proof.Defs
import proofs.«167858_g57492432224543_cont_9to1_m_790_28_alg».proof.Proof.Gen.Kernel
import proofs.«167858_g57492432224543_cont_9to1_m_790_28_alg».proof.Proof.Gen.Kernel.Skeleton
import proofs.«167858_g57492432224543_cont_9to1_m_790_28_alg».proof.Proof.Gen.Kernel.Launch
import proofs.«167858_g57492432224543_cont_9to1_m_790_28_alg».proof.Proof.Gen.Kernel.Points
import proofs.«167858_g57492432224543_cont_9to1_m_790_28_alg».proof.Proof.Gen.Kernel.Frame
import proofs.«167858_g57492432224543_cont_9to1_m_790_28_alg».proof.Proof.Gen.KernelIdeal
import proofs.«167858_g57492432224543_cont_9to1_m_790_28_alg».proof.Proof.Gen.KernelIdeal.Skeleton
import proofs.«167858_g57492432224543_cont_9to1_m_790_28_alg».proof.Proof.Gen.KernelIdeal.Launch
import proofs.«167858_g57492432224543_cont_9to1_m_790_28_alg».proof.Proof.Gen.KernelIdeal.Points
import proofs.«167858_g57492432224543_cont_9to1_m_790_28_alg».proof.Proof.Gen.KernelIdeal.Frame
import proofs.«167858_g57492432224543_cont_9to1_m_790_28_alg».proof.Proof.Gen.ReferenceIdeal
import proofs.«167858_g57492432224543_cont_9to1_m_790_28_alg».proof.Proof.Gen.Pre_finite_inputs
import proofs.«167858_g57492432224543_cont_9to1_m_790_28_alg».proof.Proof.Gen.ReferenceIdeal.Run
import proofs.«167858_g57492432224543_cont_9to1_m_790_28_alg».proof.Proof.Gen.ReferenceIdeal.Read
import proofs.«167858_g57492432224543_cont_9to1_m_790_28_alg».proof.Proof.Result
import proofs.«167858_g57492432224543_cont_9to1_m_790_28_alg».proof.Proof.RefSpec
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- On the extended reals the kernel program's result buffer ends at the layer of its argument arrays, the reference's
    at the layer of its own; the arguments agree, so the results do. -/
theorem algebraic : Cert.algebraic_KernelIdeal_ReferenceIdeal := by
  intro m ρ m' ρ' _ hagree
  refine ⟨fun c => Cert.GnnSpec.layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.GnnValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.GnnValue.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
